-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  reducesTo_S_S_d : S_.ReducesTo [] S_

variable [Facts]

def fn {F : FTy → Type} [FloatOps F] (main_arg0 : FVec F S4194304x32 .f32) (main_arg1 : FVec F S4194304x32 .f32) (main_arg2 : FVec F S_ .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S4194304x32 .f32 := Host.absf main_arg1
  let main_cst_0 : FVec F S_ .f32 := constant S_ .f32 0x7F800000#32
  let main_v5 : FVec F S4194304x32 .f32 := broadcastInDim S4194304x32 ![] bcast_S_S4194304x32 main_cst_0
  let main_v6 : IVec S4194304x32 1 := cmpf .olt main_v4 main_v5
  let main_c_1 : IVec S_ 1 := constantI S_ 1 1#1
  let main_v7 : IVec S_ 1 := (fun x v => Host.reduce IntOp.andi x v reducesTo_S4194304x32_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4194304x32 : Shape := ⟨2, ![4194304, 32]⟩
abbrev S_ : Shape := ⟨0, ![]⟩
abbrev S1048576x128 : Shape := ⟨2, ![1048576, 128]⟩
abbrev S2x1x1 : Shape := ⟨3, ![2, 1, 1]⟩
abbrev S8192x128 : Shape := ⟨2, ![8192, 128]⟩
abbrev S1x1x1 : Shape := ⟨3, ![1, 1, 1]⟩
abbrev S1x128 : Shape := ⟨2, ![1, 128]⟩
abbrev S128 : Shape := ⟨1, ![128]⟩
abbrev S1 : Shape := ⟨1, ![1]⟩
abbrev S1x1 : Shape := ⟨2, ![1, 1]⟩
abbrev S2 : Shape := ⟨1, ![2]⟩

abbrev nBuf : Space → Nat
  | .hbm => 26
  | .vmem => 7
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S_, .f32⟩
  | .hbm, ⟨3, _⟩ => ⟨S1048576x128, .f32⟩
  | .hbm, ⟨4, _⟩ => ⟨S1048576x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1x1, .f32⟩
  | .local _ .vmem, ⟨5, _⟩ => ⟨S1x1x1, .f32⟩
  | .local _ .vmem, ⟨6, _⟩ => ⟨S1x128, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v16 : BitVec 1 := Scalar.cmpi .eq arg1 c63_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4194304x32_S1048576x128 : S4194304x32.ShapeCasts S1048576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4194304x32 : Shape := ⟨2, ![4194304, 32]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S_, .f32⟩
  | .hbm, ⟨3, _⟩ => ⟨S4194304x32, .f32⟩
  | .hbm, ⟨4, _⟩ => ⟨S4194304x32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  reducesTo_S4194304x32_S_d0_1 : S4194304x32.ReducesTo [0, 1] S_
  h_S_ : 0 < S_.numel

variable [Facts₀]

class Facts : Prop extends Facts₀ where

variable [Facts]
-- ==== Proof.Found.lean ====
/-
  What the kernel body leaves behind at one grid point, read as values.

  The body keeps a one-row accumulator (128 lanes) between grid points.  At a point it
    * (first step of a half only) stores a row of zeros into the accumulator,
    * loads the two input tiles and the accumulator, and stores back "accumulator + column sums of the squared
      difference of the tiles",
    * (last step of a half only) loads the accumulator again and stores its lane sum into the 1x1x1 output block.
  The three control cases are: first step (A), a middle step (B), last step (C).  Below, each case's final
  accumulator row and case C's output block are identified with the corresponding pure expressions of the tiles
  and of the accumulator row found on entry (`rowStep`, `rowFirst`, `laneSum`), for every float instance.
-/
import proofs.«111566_j16166256902676_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator row after a step that found `acc` in it: `acc` plus the column sums of the squared difference
    of the two tiles. -/
abbrev rowStep (x0 x1 : Vec F S8192x128 .f32) (acc : Vec F S1x128 .f32) : Vec F S1x128 .f32 := k0_pay2 x0 x1 acc
/-- The accumulator row after the first step of a half: the same, over the row of zeros just stored. -/
abbrev rowFirst (x0 x1 : Vec F S8192x128 .f32) : Vec F S1x128 .f32 := k0_pay2 x0 x1 (k0_pay1 (F := F))
/-- The output block after the last step of a half: the lane sum of the accumulator row. -/
abbrev laneSum (acc : Vec F S1x128 .f32) : Vec F S1x1x1 .f32 := k0_pay3 acc

/-- A middle step leaves `rowStep` of the tiles and the row it found. -/
theorem scratch_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x128 .f32) (harg5 : arg5.IsWhole) (hc0 : ¬cond0_0 i) (hc1 : ¬cond0_1 i)
    (x0 : Vec F S8192x128 .f32) (x1 : Vec F S8192x128 .f32) (xs0 : Vec F S1x128 .f32) :
    sout0_B_0 c i arg2 harg2 arg3 harg3 arg4 harg4 arg5 harg5 hc0 hc1 x0 x1 xs0 = rowStep x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread,
    View.ld_unit_zero (S := S8192x128) hz2, View.ld_unit_zero (S := S1x128) hz2]

/-- The last step of a half leaves the same row in the accumulator … -/
theorem scratch_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x128 .f32) (harg5 : arg5.IsWhole) (hc0 : ¬cond0_0 i) (hc1 : cond0_1 i)
    (x0 : Vec F S8192x128 .f32) (x1 : Vec F S8192x128 .f32) (xs0 : Vec F S1x128 .f32) :
    sout0_C_0 c i arg2 harg2 arg3 harg3 arg4 harg4 arg5 harg5 hc0 hc1 x0 x1 xs0 = rowStep x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S8192x128) hz2, View.ld_unit_zero (S := S1x128) hz2]

/-- … and its lane sum in the output block. -/
theorem out_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x128 .f32) (harg5 : arg5.IsWhole) (hc0 : ¬cond0_0 i) (hc1 : cond0_1 i)
    (x0 : Vec F S8192x128 .f32) (x1 : Vec F S8192x128 .f32) (xs0 : Vec F S1x128 .f32) :
    out0_C_2 c i arg2 harg2 arg3 harg3 arg4 harg4 arg5 harg5 hc0 hc1 x0 x1 xs0 = laneSum (rowStep x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x128) _ hz2]
  simp only [View.readAt_eq_ld, harg2.read_unread, harg3.read_unread, harg5.read_unread,
    View.ld_unit_zero (S := S8192x128) hz2, View.ld_unit_zero (S := S1x128) hz2]

/-- The first step of a half stores zeros, reads them back, and leaves `rowFirst` of the tiles. -/
theorem scratch_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1x1 .f32) (harg4 : arg4.IsWhole) (arg5 : Memref sig .tc .vmem S1x128 .f32) (harg5 : arg5.IsWhole) (hc0 : cond0_0 i) (hc1 : ¬cond0_1 i)
    (x0 : Vec F S8192x128 .f32) (x1 : Vec F S8192x128 .f32) :
    sout0_A_0 c i arg2 harg2 arg3 harg3 arg4 harg4 arg5 harg5 hc0 hc1 x0 x1 = rowFirst x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread,
    View.ld_unit_zero (S := S8192x128) hz2]

end Cert.KernelIdeal.Found

end
-- ==== Proof.Payload.lean ====
/-
  The body's three stored values at an index, over the extended reals.

  * the reset row is `0` at every lane;
  * the accumulator row after a step is, at lane `l`, the row found on entry at `l` plus the sum over the tile's
    8192 rows `r` of `(x0 (r, l) - x1 (r, l))²` (the reduction starts from the neutral word, so it is the bare sum);
  * the output block is the sum over the 128 lanes of the accumulator row.
-/
import proofs.«111566_j16166256902676_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- A sum down the rows of a tile, lane `l`. -/
theorem colsum_apply (v : FVec Ideal S8192x128 .f32) (h : S8192x128.Reduces [0] S128) (hφ : FKind.Formats .f32)
    (hacc : (0x00000000#32 : BitVec 32) = 0x00000000#32) (l : Fin 128) :
    multiReduction .add [0] S128 v 0x00000000#32 h hφ hacc (ix1 l) = ∑ r : Fin 8192, v (ix2 r l) :=
  (Ideal.multiReduction_add_single v 0x00000000#32 h hφ hacc (ix1 l)).trans
    (Finset.sum_congr rfl fun r _ => congrArg v (funext fun a => by
      match a with
      | ⟨0, _⟩ => rfl
      | ⟨1, _⟩ => rfl))

/-- A sum along the lanes of a one-row matrix. -/
theorem lanesum_apply (v : FVec Ideal S1x128 .f32) (h : S1x128.Reduces [1] S1) (hφ : FKind.Formats .f32)
    (hacc : (0x00000000#32 : BitVec 32) = 0x00000000#32) (u : Fin 1) :
    multiReduction .add [1] S1 v 0x00000000#32 h hφ hacc (ix1 u) = ∑ l : Fin 128, v (ix2 u l) :=
  (Ideal.multiReduction_add_single v 0x00000000#32 h hφ hacc (ix1 u)).trans
    (Finset.sum_congr rfl fun r _ => congrArg v (funext fun a => by
      match a with
      | ⟨0, _⟩ => rfl
      | ⟨1, _⟩ => rfl))

/-- The reset row is zero. -/
theorem pay1_apply (y : S1x128.Idx) : k0_pay1 (F := Ideal) y = 0 := by
  unfold k0_pay1
  simp only [shapeCast_self]
  exact Ideal.ofBits_zero_f32

/-- The accumulator row after a step, at lane `l`. -/
theorem pay2_apply (x0 x1 : Vec Ideal S8192x128 .f32) (acc : Vec Ideal S1x128 .f32) (u : Fin 1) (l : Fin 128) :
    k0_pay2 (F := Ideal) x0 x1 acc (ix2 u l)
      = acc (ix2 u l) + ∑ r : Fin 8192, (x0 (ix2 r l) - x1 (ix2 r l)) * (x0 (ix2 r l) - x1 (ix2 r l)) := by
  unfold k0_pay2
  simp only [shapeCast_self]
  refine (addf_apply _ _ _).trans ?_
  refine congrArg (acc (ix2 u l) + ·) ?_
  refine (shapeCast_a_1a_apply _ _ u l).trans ?_
  exact colsum_apply _ _ _ _ l

/-- The output block: the lane sum of the accumulator row. -/
theorem pay3_apply (acc : Vec Ideal S1x128 .f32) (y : S1x1x1.Idx) :
    k0_pay3 (F := Ideal) acc y = ∑ l : Fin 128, acc (ix2 (0 : Fin 1) l) := by
  unfold k0_pay3
  dsimp only
  have h0 : (y 0).val < 1 := (y 0).isLt
  have h1 : (y 1).val < 1 := (y 1).isLt
  have h2 : (y 2).val < 1 := (y 2).isLt
  refine (shapeCast_apply _ _ y (ix2 (0 : Fin 1) (0 : Fin 1)) ?_).trans ?_
  · rw [Shape.rowMajor_val_two, Shape.rowMajor_val_three]
    show 0 * 1 + 0 = ((y 0).val * 1 + (y 1).val) * 1 + (y 2).val
    omega
  refine (shapeCast_apply _ _ (ix2 (0 : Fin 1) (0 : Fin 1)) (ix1 (0 : Fin 1)) ?_).trans ?_
  · rw [Shape.rowMajor_val_two, Shape.rowMajor_val_one]
    rfl
  exact lanesum_apply _ _ _ _ 0

end Cert.KernelIdeal.Payload

end
-- ==== Proof.Blocks.lean ====
/-
  The kernel's inputs at an index.

  The host reshapes each `[4194304, 32]` argument to `[1048576, 128]` (the same elements in row-major order)
  before the call; grid point `t` (`t = 64 p + k`: half `p`, step `k`) is handed rows
  `8192 t … 8192 t + 8191` of each reshaped array, all 128 lanes; and the output block of point `t` is entry
  `t / 64` of the `[2, 1, 1]` result.
-/
import proofs.«111566_j16166256902676_2_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- There are 128 grid points. -/
theorem lt128 (t : Fin cfg0.N) : t.val < 128 := lt_of_lt_of_eq t.isLt (show cfg0.N = 128 from N_0)

/-- Point `t` reads tile `t` of the first operand (block row `t`, block column 0) … -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- … and of the second, … -/
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- … and writes entry `t / 64` of the result. -/
theorem index2 : ∀ t : Fin cfg0.N, win0_2.index t (0 : Fin 3) = t.val / 64 ∧ win0_2.index t (1 : Fin 3) = 0
      ∧ win0_2.index t (2 : Fin 3) = 0 :=
  (by decide +kernel : ∀ t : Fin grid0.N, win0_2.index t (0 : Fin 3) = t.val / 64 ∧ win0_2.index t (1 : Fin 3) = 0
      ∧ win0_2.index t (2 : Fin 3) = 0)

/-- Row `r` of tile `t` is row `8192 t + r` of the reshaped array. -/
def tileRow (t : Fin cfg0.N) (r : Fin 8192) : Fin 1048576 :=
  ⟨t.val * 8192 + r.val, by have := lt128 t; have := r.isLt; omega⟩

theorem tileRow_val (t : Fin cfg0.N) (r : Fin 8192) : (tileRow t r).val = t.val * 8192 + r.val := rfl

/-- The first operand's block at point `t`, at `(r, l)`. -/
theorem iblk0_apply (c : Dev nD) (t : Fin cfg0.N) (r : Fin 8192) (l : Fin 128) :
    (iblk m c 0 t : Vec F S8192x128 .f32) (ix2 r l) = V m c main_v0 (ix2 (tileRow t r) l) := by
  unfold iblk
  rw [View.read_apply]
  show V m c main_v0 _ = V m c main_v0 _
  congr 1
  funext a
  apply Fin.ext
  match a with
  | ⟨0, _⟩ => show win0_0.index t 0 * 8192 + 1 * r.val = t.val * 8192 + r.val; rw [(index0 t).1]; omega
  | ⟨1, _⟩ => show win0_0.index t 1 * 128 + 1 * l.val = l.val; rw [(index0 t).2]; omega

/-- The second operand's block at point `t`, at `(r, l)`. -/
theorem iblk1_apply (c : Dev nD) (t : Fin cfg0.N) (r : Fin 8192) (l : Fin 128) :
    (iblk m c 1 t : Vec F S8192x128 .f32) (ix2 r l) = V m c main_v1 (ix2 (tileRow t r) l) := by
  unfold iblk
  rw [View.read_apply]
  show V m c main_v1 _ = V m c main_v1 _
  congr 1
  funext a
  apply Fin.ext
  match a with
  | ⟨0, _⟩ => show win0_1.index t 0 * 8192 + 1 * r.val = t.val * 8192 + r.val; rw [(index1 t).1]; omega
  | ⟨1, _⟩ => show win0_1.index t 1 * 128 + 1 * l.val = l.val; rw [(index1 t).2]; omega

/-- What the call finds in its first operand: the first argument, reshaped. -/
theorem V_v0 (c : Dev nD) : (V m c main_v0 : S1048576x128.Idx → Elt F .f32)
    = shapeCast S1048576x128 (m ((c : Thread nD τ).loc main_arg0)) shapeCasts_S4194304x32_S1048576x128 := by
  show StableHlo.after hostOps0 (fun b => m (c, b)) (Proc.devRef .tc main_v0) = _
  after_results
  rfl

/-- What the call finds in its second operand: the second argument, reshaped. -/
theorem V_v1 (c : Dev nD) : (V m c main_v1 : S1048576x128.Idx → Elt F .f32)
    = shapeCast S1048576x128 (m ((c : Thread nD τ).loc main_arg1)) shapeCasts_S4194304x32_S1048576x128 := by
  show StableHlo.after hostOps0 (fun b => m (c, b)) (Proc.devRef .tc main_v1) = _
  after_results
  rfl

end Cert.KernelIdeal.Blocks

end
-- ==== Proof.Accum.lean ====
/-
  The accumulator, point by point.

  Write `A`, `B` for the two reshaped arguments and `d (row, l) = (A (row, l) - B (row, l))²`.  Grid point `n`
  belongs to half `n / 64` and is step `n % 64` of it; the tile it is handed covers rows `8192 n … 8192 n + 8191`.
  With `T n l = ∑ r < 8192, d (8192 n + r, l)` (the tile's column sums), the accumulator row after point `n` is,
  at lane `l`,

      T (n - n % 64) l + T (n - n % 64 + 1) l + … + T n l,

  the tile sums of the steps of the current half so far: the first step of a half starts from a row of zeros
  (`0 + x = x`), every later step adds its tile's column sums to the row the step before left.  At the last step
  of a half (`n % 64 = 63`) the output block receives the sum of that row over the 128 lanes.
  Proved by induction on the point; nothing is enumerated.
-/
import proofs.«111566_j16166256902676_2_alg».proof.Proof.Found
import proofs.«111566_j16166256902676_2_alg».proof.Proof.Payload
import proofs.«111566_j16166256902676_2_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

/-! ## Which pure expression each kind of step leaves (any float instance) -/

section Steps
variable {F : FTy → Type} [FloatOps F]
variable (m : (ℓ : Loc nD τ sig) → Buf (Elt F) ℓ)

/-- The accumulator row the point before `t` left. -/
abbrev prevRow (c : Dev nD) (t : Fin cfg0.N) : Vec F S1x128 .f32 :=
  (outsAt0 m c (t.val - 1) (Nat.lt_of_le_of_lt (Nat.sub_le _ _) t.isLt)).2

/-- After the first step of a half. -/
theorem row_first (c : Dev nD) (t : Fin cfg0.N) (h0 : t.val % 64 = 0) (h1 : ¬t.val % 64 = 63) :
    (outsAt0 m c t.val t.isLt).2 = Found.rowFirst (iblk m c 0 t) (iblk m c 1 t) :=
  (congrArg Prod.snd (outsAt0_A m c t h0 h1)).trans
    (Found.scratch_A (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
      (iblk m c 0 t) (iblk m c 1 t))

/-- After a middle step. -/
theorem row_middle (c : Dev nD) (t : Fin cfg0.N) (h0 : ¬t.val % 64 = 0) (h1 : ¬t.val % 64 = 63) :
    (outsAt0 m c t.val t.isLt).2 = Found.rowStep (iblk m c 0 t) (iblk m c 1 t) (prevRow m c t) :=
  (congrArg Prod.snd (outsAt0_B m c t h0 h1)).trans
    (Found.scratch_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
      (iblk m c 0 t) (iblk m c 1 t) (prevRow m c t))

/-- After the last step of a half: the row … -/
theorem row_last (c : Dev nD) (t : Fin cfg0.N) (h0 : ¬t.val % 64 = 0) (h1 : t.val % 64 = 63) :
    (outsAt0 m c t.val t.isLt).2 = Found.rowStep (iblk m c 0 t) (iblk m c 1 t) (prevRow m c t) :=
  (congrArg Prod.snd (outsAt0_C m c t h0 h1)).trans
    (Found.scratch_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (prevRow m c t))

/-- … and the output block, the lane sum of that row. -/
theorem out_last (c : Dev nD) (t : Fin cfg0.N) (h0 : ¬t.val % 64 = 0) (h1 : t.val % 64 = 63) :
    (outsAt0 m c t.val t.isLt).1 = Found.laneSum ((outsAt0 m c t.val t.isLt).2) :=
  ((congrArg Prod.fst (outsAt0_C m c t h0 h1)).trans
    (Found.out_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (prevRow m c t))).trans
    (congrArg Found.laneSum (row_last m c t h0 h1).symm)

end Steps

/-! ## The running sum, over the extended reals -/

variable (m : (ℓ : Loc nD τ sig) → Buf (Elt Ideal) ℓ)

/-- The first reshaped argument, as the call finds it: an array of extended reals. -/
def argA (c : Dev nD) : S1048576x128.Idx → EReal := V m c main_v0
/-- The second reshaped argument. -/
def argB (c : Dev nD) : S1048576x128.Idx → EReal := V m c main_v1

/-- The squared difference of the reshaped arguments at `(row, l)`. -/
def sqd (c : Dev nD) (row : Fin 1048576) (l : Fin 128) : EReal :=
  (argA m c (ix2 row l) - argB m c (ix2 row l)) * (argA m c (ix2 row l) - argB m c (ix2 row l))

/-- The same with the row a natural number (zero past the last row), so that steps can be counted in `ℕ`. -/
def sqdN (c : Dev nD) (row : ℕ) (l : Fin 128) : EReal :=
  if h : row < 1048576 then sqd m c ⟨row, h⟩ l else 0

/-- Tile `n`'s column sum at lane `l`. -/
def tileSum (c : Dev nD) (n : ℕ) (l : Fin 128) : EReal := ∑ r : Fin 8192, sqdN m c (n * 8192 + r.val) l

/-- What a step adds at lane `l`, of the two tiles it is handed: the column sum of their squared difference. -/
def stepAdd (x0 x1 : Vec Ideal S8192x128 .f32) (l : Fin 128) : EReal :=
  ∑ r : Fin 8192, (x0 (ix2 r l) - x1 (ix2 r l)) * (x0 (ix2 r l) - x1 (ix2 r l))

/-- The accumulator row after a step, at lane `l`: the row found plus what the step adds. -/
theorem row_apply (x0 x1 : Vec Ideal S8192x128 .f32) (acc : Vec Ideal S1x128 .f32) (u : Fin 1) (l : Fin 128) :
    k0_pay2 (F := Ideal) x0 x1 acc (ix2 u l) = acc (ix2 u l) + stepAdd x0 x1 l :=
  Payload.pay2_apply x0 x1 acc u l

/-- At point `t` that is tile `t`'s column sum. -/
theorem step_sum (c : Dev nD) (t : Fin cfg0.N) (l : Fin 128) :
    stepAdd (iblk m c 0 t) (iblk m c 1 t) l = tileSum m c t.val l := by
  unfold stepAdd tileSum
  refine Finset.sum_congr rfl fun r _ => ?_
  rw [iblk0_apply, iblk1_apply]
  unfold sqdN
  rw [dif_pos (show t.val * 8192 + r.val < 1048576 from (tileRow t r).isLt)]
  rfl

/-- The accumulator row after point `n`, at lane `l`: the tile sums of the current half's steps so far. -/
def accSpec (c : Dev nD) (n : ℕ) (l : Fin 128) : EReal :=
  ∑ k ∈ Finset.range (n % 64 + 1), tileSum m c (n - n % 64 + k) l

/-- The first step of a half leaves its own tile sum. -/
theorem first_step (c : Dev nD) (t : Fin cfg0.N) (h0 : t.val % 64 = 0) (h1 : ¬t.val % 64 = 63) (u : Fin 1) (l : Fin 128) :
    ((outsAt0 m c t.val t.isLt).2 : Vec Ideal S1x128 .f32) (ix2 u l) = tileSum m c t.val l := by
  rw [row_first m c t h0 h1]
  refine (row_apply (iblk m c 0 t) (iblk m c 1 t) (k0_pay1 (F := Ideal)) u l).trans ?_
  rw [Payload.pay1_apply, zero_add]
  exact step_sum m c t l

/-- A later step adds its tile sum to what the step before left. -/
theorem later_step (c : Dev nD) (t : Fin cfg0.N) (h0 : ¬t.val % 64 = 0) (u : Fin 1) (l : Fin 128) :
    ((outsAt0 m c t.val t.isLt).2 : Vec Ideal S1x128 .f32) (ix2 u l)
      = (prevRow m c t : Vec Ideal S1x128 .f32) (ix2 u l) + tileSum m c t.val l := by
  have e : (outsAt0 m c t.val t.isLt).2 = Found.rowStep (iblk m c 0 t) (iblk m c 1 t) (prevRow m c t) := by
    by_cases h1 : t.val % 64 = 63
    · exact row_last m c t h0 h1
    · exact row_middle m c t h0 h1
  rw [e]
  refine (row_apply (iblk m c 0 t) (iblk m c 1 t) (prevRow m c t) u l).trans ?_
  rw [step_sum m c t l]

/-- THE INVARIANT: the accumulator row after point `n` is the running sum of the current half's tile sums. -/
theorem acc_eq (c : Dev nD) : ∀ (n : ℕ) (h : n < cfg0.N) (u : Fin 1) (l : Fin 128),
    ((outsAt0 m c n h).2 : Vec Ideal S1x128 .f32) (ix2 u l) = accSpec m c n l
  | 0, h, u, l => by
    refine (first_step m c ⟨0, h⟩ (Nat.zero_mod _) (by show ¬(0 % 64 = 63); decide) u l).trans ?_
    unfold accSpec
    simp
  | n + 1, h, u, l => by
    by_cases h0 : (n + 1) % 64 = 0
    · have h1 : ¬(n + 1) % 64 = 63 := by omega
      refine (first_step m c ⟨n + 1, h⟩ h0 h1 u l).trans ?_
      unfold accSpec
      rw [h0]
      simp
    · refine ((later_step m c ⟨n + 1, h⟩ h0 u l).trans
        (congrArg (· + tileSum m c (n + 1) l) (acc_eq c n (Nat.lt_of_succ_lt h) u l))).trans ?_
      unfold accSpec
      have e1 : (n + 1) % 64 = n % 64 + 1 := by omega
      have e2 : n + 1 - (n % 64 + 1) = n - n % 64 := by omega
      have e3 : n - n % 64 + (n % 64 + 1) = n + 1 := by omega
      rw [e1, e2, Finset.sum_range_succ _ (n % 64 + 1), e3]

/-- At the last step of a half the output block holds the lane sum of the running sum. -/
theorem out_eq (c : Dev nD) (t : Fin cfg0.N) (h1 : t.val % 64 = 63) (y : S1x1x1.Idx) :
    ((outsAt0 m c t.val t.isLt).1 : Vec Ideal S1x1x1 .f32) y = ∑ l : Fin 128, accSpec m c t.val l := by
  have h0 : ¬t.val % 64 = 0 := by omega
  rw [out_last m c t h0 h1]
  refine (Payload.pay3_apply _ y).trans ?_
  exact Finset.sum_congr rfl fun l _ => acc_eq m c t.val t.isLt 0 l

end Cert.KernelIdeal.Accum

end
-- ==== Proof.Tail.lean ====
/-
  The scalar arithmetic both programs end with.

  With `s` the sum of squared differences and `c` the scalar parameter, both programs return

      ((-1/2 · 2²⁷) · log 2π  -  (1/2 · 2²⁷) · c)  -  (1/2 · exp (-2 · c)) · s

  spelt with the same float words in the same grouping.  It is kept as ONE function of `c` and `s` and never opened:
  the two results are equal as soon as the two sums are.
-/
import Idealize.ShloMosaic.PureOps.Ideal

noncomputable section

open Idealize.ShloMosaic

namespace Cert.Shared

/-- The rank-0 shape. -/
abbrev Sc : Shape := ⟨0, ![]⟩

/-- The closing arithmetic, as a function of the scalar parameter and of the sum of squares. -/
def tail (c s : FVec Ideal Sc .f32) : FVec Ideal Sc .f32 :=
  subf (subf (mulf (mulf (constant (F := Ideal) Sc .f32 0xBF000000#32) (constant (F := Ideal) Sc .f32 0x4D000000#32))
        (constant (F := Ideal) Sc .f32 0x3FEB3F8E#32))
      (mulf (mulf (constant (F := Ideal) Sc .f32 0x3F000000#32) (constant (F := Ideal) Sc .f32 0x4D000000#32)) c))
    (mulf (mulf (constant (F := Ideal) Sc .f32 0x3F000000#32)
        (Host.exp (F := Ideal) (mulf (constant (F := Ideal) Sc .f32 0xC0000000#32) c))) s)

end Cert.Shared

end
-- ==== Proof.Final.lean ====
/-
  From the per-point output blocks to the program's result.

  The `[2, 1, 1]` array the call writes gets entry `p` from the one point that writes back block `p`: the last
  step of half `p`, point `64 p + 63`, whose output block holds the lane sum of the accumulator row there.  These
  two blocks cover the array, so after the call it is `halves`: entry `p` = the sum over the 128 lanes of the running
  sum at point `64 p + 63`.  The host then reshapes it to `[2]`, adds its two entries to a zero, and applies the closing
  arithmetic (`Shared.tail`) with the scalar argument.
-/
import proofs.«111566_j16166256902676_2_alg».proof.Proof.Accum
import proofs.«111566_j16166256902676_2_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Accum

variable (m : (ℓ : Loc nD τ sig) → Buf (Elt Ideal) ℓ) (ρ : Dev nD → PrngReg)

/-- The array the call leaves: entry `p` is the lane sum of the running sum at the last step of half `p`. -/
def halves (c : Dev nD) : S2x1x1.Idx → EReal := fun j => ∑ l : Fin 128, accSpec m c ((j 0).val * 64 + 63) l

/-- What a writing point writes back is its block of `halves`. -/
theorem flushed_eq (c : Dev nD) (t : Fin cfg0.N) (hf : (cfg0.win 2).flush t = true) :
    (dats m 0 c).flushed 2 t = ((cfg0.win 2).blk t).view.read (Elt Ideal) (halves m c) := by
  have h63 : t.val % 64 = 63 := (flush0_2 t).mp hf
  funext y
  rw [View.read_apply]
  show ((dats m 0 c).after 2 t) _ = halves m c _
  rw [after0_2]
  refine (out_eq m c t h63 _).trans ?_
  unfold halves
  have hy : (y 0).val < 1 := (y 0).isLt
  have e : ((((cfg0.win 2).blk t).view.emb y) 0).val * 64 + 63 = t.val := by
    show (win0_2.index t 0 * 1 + 1 * (y 0).val) * 64 + 63 = t.val
    rw [(index2 t).1]; omega
  rw [e]

/-- The two writing points' blocks cover the array, so it ends as `halves`. -/
theorem final_halves (c : Dev nD) : (dats m 0 c).arrAt 2 cfg0.N = halves m c :=
  (dats m 0 c).arrAt_eq_of_cover 2 (halves m c) (flushed_eq m c) fun i => by
    have hi0 : (i 0 : Nat) < 2 := (i 0).isLt
    have hi1 : (i 1 : Nat) < 1 := (i 1).isLt
    have hi2 : (i 2 : Nat) < 1 := (i 2).isLt
    have hN : cfg0.N = 128 := N_0
    obtain ⟨t, ht⟩ : ∃ t : Fin cfg0.N, t.val = (i 0 : Nat) * 64 + 63 := ⟨⟨(i 0 : Nat) * 64 + 63, by omega⟩, rfl⟩
    refine ⟨t, (flush0_2 t).mpr (by omega), ?_⟩
    show i ∈ ((View.whole main_v2).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [(index2 t).1]; omega
    | ⟨1, _⟩ =>
      show win0_2.index t 1 * 1 ≤ (i 1 : Nat) ∧ (i 1 : Nat) < win0_2.index t 1 * 1 + 1
      rw [(index2 t).2.1]; omega
    | ⟨2, _⟩ =>
      show win0_2.index t 2 * 1 ≤ (i 2 : Nat) ∧ (i 2 : Nat) < win0_2.index t 2 * 1 + 1
      rw [(index2 t).2.2]; omega

/-- The sum of squares as the kernel computes it: the two entries of `halves` (reshaped to a vector) added to a zero. -/
def sumSq (c : Dev nD) : FVec Ideal S_ .f32 :=
  Host.reduceAdd (F := Ideal) (shapeCast S2 (halves m c) shapeCasts_S2x1x1_S2) (constant (F := Ideal) S_ .f32 0x00000000#32)
    reducesTo_S2_S_d0 h_S_

/-- The program's result: the closing arithmetic of the scalar argument and that sum. -/
def result (c : Dev nD) : Buf (Elt Ideal) ((c : Thread nD τ).loc main_v14) :=
  Cert.Shared.tail (m ((c : Thread nD τ).loc main_arg2)) (sumSq m c)

/-- The host lines after the call compute `result` from the array the call left and the scalar argument. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2
      (by exact (by decide : ∀ w, Pipeline.arrRef spec0 w ≠ main_arg2))).trans (V_main_arg2 m c)
  have e0 : Pipeline.withArrays (cfgs 0).spec c (V0 m c) (fun w => (dats m 0 c).arrAt w (cfgs 0).N) (Proc.devRef .tc main_v2)
      = halves m c :=
    (Pipeline.withArrays_arr spec0 launch0.win.arr_inj c _ _ 2).trans (final_halves m c)
  rw [e2, e0]
  rfl

/-- The idealized kernel's run, read: every weakly fair execution ends with the result at `result` and the three
    arguments as they were. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Final

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.SumSq.lean ====
/-
  The kernel's sum of squares in closed form.

  Entry `p` of the array the call leaves collects, lane by lane, the 64 tiles of half `p`; the host adds the two
  entries.  Row `r` of tile `k` of half `p` is row `(64 p + k) · 8192 + r` of the reshaped arrays, and these run
  through all `2 · 64 · 8192 = 1048576` rows exactly once, so the kernel's sum is the sum over every (row, lane) of
  the reshaped arrays — and a reshape only renames positions (it is a bijection of index sets), so it is the sum over
  every index of the arguments themselves:

      0 + ∑ over all (i, j) of (o (i, j) - x (i, j))².

  Only commutativity and associativity of `+` on the extended reals are used.
-/
import proofs.«111566_j16166256902676_2_alg».proof.Proof.Final
import proofs.«111566_j16166256902676_2_alg».proof.Proof.LibSumRegroup
import Idealize.ShloMosaic.PureOps.Ideal.Laws

noncomputable section

open Idealize.ShloMosaic Idealize.ShloMosaic.TcCoe Idealize.SL.Sem Idealize.ShloMosaic.ValueIdx

namespace Cert.KernelIdeal.SumSq

open Cert.KernelIdeal Cert.KernelIdeal.Gen Cert.KernelIdeal.Blocks Cert.KernelIdeal.Accum Cert.KernelIdeal.Final

/-- A sum over a rank-1 index set is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

variable (m : (ℓ : Loc nD τ sig) → Buf (Elt Ideal) ℓ)

/-- The first argument as launched: an array of extended reals. -/
def arg0 (c : Dev nD) : S4194304x32.Idx → EReal := m ((c : Thread nD τ).loc main_arg0)
/-- The second argument as launched. -/
def arg1 (c : Dev nD) : S4194304x32.Idx → EReal := m ((c : Thread nD τ).loc main_arg1)

/-- Row `r` of tile `k` of half `p`, as a row of the reshaped arrays. -/
def row (p : Fin 2) (k : Fin 64) (r : Fin 8192) : Fin 1048576 :=
  ⟨(p.val * 64 + k.val) * 8192 + r.val, by have := p.isLt; have := k.isLt; have := r.isLt; omega⟩

/-- Entry `p` of the call's result: all tiles of half `p`, lane by lane. -/
theorem halves_apply (c : Dev nD) (p : Fin 2) :
    halves m c (ix3 p (0 : Fin 1) (0 : Fin 1))
      = ∑ l : Fin 128, ∑ k : Fin 64, ∑ r : Fin 8192, sqd m c (row p k r) l := by
  unfold halves
  refine Finset.sum_congr rfl fun l _ => ?_
  show accSpec m c (p.val * 64 + 63) l = _
  unfold accSpec
  have e1 : (p.val * 64 + 63) % 64 + 1 = 64 := by omega
  have e2 : p.val * 64 + 63 - (p.val * 64 + 63) % 64 = p.val * 64 := by omega
  rw [e1, e2, Finset.sum_range]
  refine Finset.sum_congr rfl fun k _ => ?_
  unfold tileSum
  refine Finset.sum_congr rfl fun r _ => ?_
  unfold sqdN
  have h : (p.val * 64 + k.val) * 8192 + r.val < 1048576 := (row p k r).isLt
  rw [dif_pos h]
  rfl

/-- The host's sum of the two entries, from a zero. -/
theorem sumSq_apply (c : Dev nD) (i : S_.Idx) :
    sumSq m c i = 0 + ∑ p : Fin 2, halves m c (ix3 p (0 : Fin 1) (0 : Fin 1)) := by
  unfold sumSq
  simp only [Host.reduceAdd, Ideal.hostReduceAdd_def]
  refine (Ideal.hostReduceAdd_total reducesTo_S2_S_d0 (fun b => b.elim0) _ _ i).trans ?_
  refine congrArg₂ (· + ·) Ideal.ofBits_zero_f32 ?_
  rw [sum_idx1]
  refine Finset.sum_congr rfl fun p _ => ?_
  exact shapeCast_apply _ _ (ix1 p) (ix3 p (0 : Fin 1) (0 : Fin 1)) (by
    rw [Shape.rowMajor_val_three, Shape.rowMajor_val_one]
    show (p.val * 1 + 0) * 1 + 0 = p.val
    omega)

/-- THE KERNEL'S SUM: zero plus the sum, over every index of the arguments, of the squared difference. -/
theorem sumSq_eq (c : Dev nD) (i : S_.Idx) :
    sumSq m c i = 0 + ∑ j : S4194304x32.Idx, (arg0 m c j - arg1 m c j) * (arg0 m c j - arg1 m c j) := by
  rw [sumSq_apply]
  refine congrArg (0 + ·) ?_
  calc ∑ p : Fin 2, halves m c (ix3 p (0 : Fin 1) (0 : Fin 1))
      = ∑ p : Fin 2, ∑ l : Fin 128, ∑ k : Fin 64, ∑ r : Fin 8192, sqd m c (row p k r) l :=
        Finset.sum_congr rfl fun p _ => halves_apply m c p
    _ = ∑ rw : Fin 1048576, ∑ l : Fin 128, sqd m c rw l :=
        SumLaw.regroup_fin (by norm_num) (sqd m c) row (fun p k r => rfl)
    _ = ∑ j' : S1048576x128.Idx, (argA m c j' - argB m c j') * (argA m c j' - argB m c j') :=
        (sum_idx2 (fun j' : S1048576x128.Idx => (argA m c j' - argB m c j') * (argA m c j' - argB m c j'))).symm
    _ = ∑ j : S4194304x32.Idx, (arg0 m c j - arg1 m c j) * (arg0 m c j - arg1 m c j) := by
        rw [show argA m c = shapeCast S1048576x128 (arg0 m c) shapeCasts_S4194304x32_S1048576x128 from V_v0 m c,
          show argB m c = shapeCast S1048576x128 (arg1 m c) shapeCasts_S4194304x32_S1048576x128 from V_v1 m c]
        exact Equiv.sum_comp (Shape.reshapeEquiv shapeCasts_S4194304x32_S1048576x128)
          (fun j => (arg0 m c j - arg1 m c j) * (arg0 m c j - arg1 m c j))

end Cert.KernelIdeal.SumSq

end
-- ==== Proof.RefSum.lean ====
/-
  The reference, read.

  The reference subtracts the arguments, squares, and adds everything up from a zero in one reduction over both
  axes; over the extended reals that is `0 + ∑ over all (i, j) of (o (i, j) - x (i, j))²`.  Its result is the closing
  arithmetic (`Shared.tail`) of the scalar argument and that sum.
-/
import proofs.«111566_j16166256902676_2_alg».proof.Proof.Gen.ReferenceIdeal.Read
import proofs.«111566_j16166256902676_2_alg».proof.Proof.Tail
import Idealize.ShloMosaic.PureOps.Ideal.Laws

noncomputable section

open Idealize.ShloMosaic

namespace Cert.ReferenceIdeal.RefSum

open Cert.ReferenceIdeal Cert.ReferenceIdeal.Gen Cert.ReferenceIdeal.Read

/-- The reference's sum of squares. -/
theorem sum_apply (x0 x1 : Vec Ideal S4194304x32 .f32) (i : S_.Idx) :
    val_main_v2 (F := Ideal) x0 x1 i = 0 + ∑ j : S4194304x32.Idx, (x0 j - x1 j) * (x0 j - x1 j) :=
  (val_main_v2_apply x0 x1 i).trans (congrArg₂ (· + ·) Ideal.ofBits_zero_f32 rfl)

/-- The reference's result is the closing arithmetic of the scalar argument and its sum of squares. -/
theorem result_eq (x0 x1 : Vec Ideal S4194304x32 .f32) (x2 : Vec Ideal S_ .f32) :
    val_main_v12 (F := Ideal) x0 x1 x2 = Cert.Shared.tail x2 (val_main_v2 (F := Ideal) x0 x1) := rfl

end Cert.ReferenceIdeal.RefSum

end
-- ==== Proof.lean ====
/-
  A Gaussian log-likelihood with a learned scalar log-noise `c`, over `o, x : f32[4194304, 32]`:

      out = ((-1/2 · N) · log 2π  -  (1/2 · N) · c)  -  (1/2 · exp (-2 c)) · ∑ (o - x)²,      N = 4194304 · 32 = 2²⁷.

  The kernel computes the sum of squares on a lane-dense view: both arguments are reshaped (row-major) to
  `[1048576, 128]`, cut into 128 tiles of 8192 rows, and handed to a grid of 2 halves × 64 steps.  Each step adds, lane
  by lane, the column sums of its tile's squared difference into a one-row accumulator that is reset at the first step
  of a half; the last step of a half sums the accumulator over its 128 lanes into entry `p` of a `[2, 1, 1]` result;
  the host adds the two entries and applies the closing scalar arithmetic.  The reference sums `(o - x)²` over all
  indices in one reduction and applies the same closing arithmetic, word for word.

  WHY THEY AGREE over the extended reals: both sums run through the same `2²⁷` summands — a row-major reshape is a
  bijection of index sets, and row `(64 p + k) · 8192 + r`, lane `l` over `p < 2, k < 64, r < 8192, l < 128` meets every
  (row, lane) of the reshaped arrays once — and addition of extended reals is commutative and associative, so the
  grouping and the order do not matter; the zeros the reductions start from are neutral.  No distributivity and no
  cancellation is used, so the finiteness of the inputs is not needed for the value (the precondition is not opened).

  The modules: `LibSumRegroup` (regrouping a finite sum), `Found` (what the body leaves at a point, as pure expressions),
  `Payload` (those at an index), `Blocks` (tiles and the host reshape at an index), `Accum` (the accumulator point
  by point, by induction), `Final` (from output blocks to the program's result; the idealized kernel's run),
  `SumSq` (the kernel's sum in closed form), `RefSum` (the reference read), `Tail` (the shared closing arithmetic).
  The three frames are the generated ones (the reference's: its generated run with the result dropped); the ideal
  pass rewrote nothing, so `preserves` is `True`.
-/
import proofs.«111566_j16166256902676_2_alg».proof.Defs
import proofs.«111566_j16166256902676_2_alg».proof.Proof.Gen.Kernel
import proofs.«111566_j16166256902676_2_alg».proof.Proof.Gen.Kernel.Skeleton
import proofs.«111566_j16166256902676_2_alg».proof.Proof.Gen.Kernel.Launch
import proofs.«111566_j16166256902676_2_alg».proof.Proof.Gen.Kernel.Points
import proofs.«111566_j16166256902676_2_alg».proof.Proof.Gen.Kernel.Frame
import proofs.«111566_j16166256902676_2_alg».proof.Proof.Gen.KernelIdeal
import proofs.«111566_j16166256902676_2_alg».proof.Proof.Gen.KernelIdeal.Skeleton
import proofs.«111566_j16166256902676_2_alg».proof.Proof.Gen.KernelIdeal.Launch
import proofs.«111566_j16166256902676_2_alg».proof.Proof.Gen.KernelIdeal.Points
import proofs.«111566_j16166256902676_2_alg».proof.Proof.Gen.KernelIdeal.Frame
import proofs.«111566_j16166256902676_2_alg».proof.Proof.Gen.ReferenceIdeal
import proofs.«111566_j16166256902676_2_alg».proof.Proof.Gen.ReferenceIdeal.Run
import proofs.«111566_j16166256902676_2_alg».proof.Proof.Gen.ReferenceIdeal.Read
import proofs.«111566_j16166256902676_2_alg».proof.Proof.Gen.Pre_finite_inputs
import proofs.«111566_j16166256902676_2_alg».proof.Proof.SumSq
import proofs.«111566_j16166256902676_2_alg».proof.Proof.RefSum
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the closing arithmetic of the scalar argument and of `0 + ∑ (o - x)²`: the kernel's sum by
    `SumSq.sumSq_eq`, the reference's by `RefSum.sum_apply`, over arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefSum.result_eq,
    (hagree c).1, (hagree c).2.1, (hagree c).2.2]
  exact congrArg (Cert.Shared.tail _) (funext fun i =>
    (Cert.ReferenceIdeal.RefSum.sum_apply _ _ i).trans (Cert.KernelIdeal.SumSq.sumSq_eq m c i).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
